-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S1600000x8 : S_.BroadcastsInDim S1600000x8 (![] : Fin 0 → Fin S1600000x8.rank)
  reducesTo_S1600000x8_S_d0_1 : S1600000x8.ReducesTo [0, 1] S_
  bcast_S_S136x64 : S_.BroadcastsInDim S136x64 (![] : Fin 0 → Fin S136x64.rank)
  reducesTo_S136x64_S_d0_1 : S136x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg8 : FVec F S64x1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  main_v38

def fn_part1 {F : FTy → Type} [FloatOps F] (main_arg5 : FVec F S64 .f32) (main_arg6 : FVec F S64x64 .f32) (main_arg7 : FVec F S64 .f32) (main_arg8 : FVec F S64x1 .f32) (main_v13 : IVec S_ 1) (main_v16 : IVec S136x64 1) : IVec S_ 1 :=
  let main_c_5 : IVec S_ 1 := constantI S_ 1 1#1
  let main_v17 : IVec S_ 1 := (fun x v => Host.reduce IntOp.andi x v reducesTo_S136x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S50000x64 .f32) (main_arg1 : FVec F S50000x3 .f32) (main_arg2 : IVec S2x1600000 32) (main_arg3 : FVec F S1600000x8 .f32) (main_arg4 : FVec F S136x64 .f32) (main_arg5 : FVec F S64 .f32) (main_arg6 : FVec F S64x64 .f32) (main_arg7 : FVec F S64 .f32) (main_arg8 : FVec F S64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S1600000x8 .f32 := Host.absf main_arg3
  let main_cst_2 : FVec F S_ .f32 := constant S_ .f32 0x7F800000#32
  let main_v10 : FVec F S1600000x8 .f32 := broadcastInDim S1600000x8 ![] bcast_S_S1600000x8 main_cst_2
  let main_v11 : IVec S1600000x8 1 := cmpf .olt main_v9 main_v10
  let main_c_3 : IVec S_ 1 := constantI S_ 1 1#1
  let main_v12 : IVec S_ 1 := (fun x v => Host.reduce IntOp.andi x v reducesTo_S1600000x8_S_d0_1 h_S_) main_v11 main_c_3
  let main_v13 : IVec S_ 1 := andi main_v8 main_v12
  let main_v14 : FVec F S136x64 .f32 := Host.absf main_arg4
  let main_cst_4 : FVec F S_ .f32 := constant S_ .f32 0x7F800000#32
  let main_v15 : FVec F S136x64 .f32 := broadcastInDim S136x64 ![] bcast_S_S136x64 main_cst_4
  let main_v16 : IVec S136x64 1 := cmpf .olt main_v14 main_v15
  fn_part1 (F := F) main_arg5 main_arg6 main_arg7 main_arg8 main_v13 main_v16
-- ==== Kernel.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1600000x3 : Shape := ⟨2, ![1600000, 3]⟩
abbrev S128x64 : Shape := ⟨2, ![128, 64]⟩
abbrev S8x64 : Shape := ⟨2, ![8, 64]⟩
abbrev S1x64 : Shape := ⟨2, ![1, 64]⟩
abbrev S6400x128 : Shape := ⟨2, ![6400, 128]⟩
abbrev S6400x8 : Shape := ⟨2, ![6400, 8]⟩
abbrev S6400x3 : Shape := ⟨2, ![6400, 3]⟩
abbrev S6400x64 : Shape := ⟨2, ![6400, 64]⟩
abbrev S6400x1 : Shape := ⟨2, ![6400, 1]⟩

abbrev nBuf : Space → Nat
  | .hbm => 83
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x1600000, .i32⟩
  | .hbm, ⟨3, _⟩ => ⟨S1600000x8, .f32⟩
  | .hbm, ⟨4, _⟩ => ⟨S136x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000x64, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .bf16⟩
  | .hbm, ⟨32, _⟩ => ⟨S1600000x128, .bf16⟩
  | .hbm, ⟨33, _⟩ => ⟨S1600000x8, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x3, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x3, .f32⟩
  | .hbm, ⟨52, _⟩ => ⟨S1600000x3, .f32⟩
  | .hbm, ⟨53, _⟩ => ⟨S1600000x3, .f32⟩
  | .hbm, ⟨54, _⟩ => ⟨S_, .f32⟩
  | .hbm, ⟨55, _⟩ => ⟨S1600000, .f32⟩
  | .hbm, ⟨56, _⟩ => ⟨S1600000x1, .f32⟩
  | .hbm, ⟨57, _⟩ => ⟨S_, .f32⟩
  | .hbm, ⟨58, _⟩ => ⟨S1600000x1, .f32⟩
  | .hbm, ⟨59, _⟩ => ⟨S1600000x1, .f32⟩
  | .hbm, ⟨60, _⟩ => ⟨S1600000x1, .f32⟩
  | .hbm, ⟨61, _⟩ => ⟨S_, .f32⟩
  | .hbm, ⟨62, _⟩ => ⟨S1600000x1, .f32⟩
  | .hbm, ⟨63, _⟩ => ⟨S1600000x1, .f32⟩
  | .hbm, ⟨64, _⟩ => ⟨S1600000x3, .f32⟩
  | .hbm, ⟨65, _⟩ => ⟨S1600000x3, .f32⟩
  | .hbm, ⟨66, _⟩ => ⟨S128x64, .f32⟩
  | .hbm, ⟨67, _⟩ => ⟨S128x64, .bf16⟩
  | .hbm, ⟨68, _⟩ => ⟨S8x64, .f32⟩
  | .hbm, ⟨69, _⟩ => ⟨S8x64, .bf16⟩
  | .hbm, ⟨70, _⟩ => ⟨S1x64, .f32⟩
  | .hbm, ⟨71, _⟩ => ⟨S1x64, .f32⟩
  | .hbm, ⟨72, _⟩ => ⟨S64x64, .bf16⟩
  | .hbm, ⟨73, _⟩ => ⟨S64x1, .bf16⟩
  | .hbm, ⟨74, _⟩ => ⟨S1600000x3, .f32⟩
  | .hbm, ⟨75, _⟩ => ⟨S_, .f32⟩
  | .hbm, ⟨76, _⟩ => ⟨S50000x3, .f32⟩
  | .hbm, ⟨77, _⟩ => ⟨S1600000x1, .i32⟩
  | .hbm, ⟨78, _⟩ => ⟨S50000x3, .f32⟩
  | .hbm, ⟨79, _⟩ => ⟨S_, .f32⟩
  | .hbm, ⟨80, _⟩ => ⟨S50000x3, .f32⟩
  | .hbm, ⟨81, _⟩ => ⟨S50000x3, .f32⟩
  | .hbm, ⟨82, _⟩ => ⟨S50000x3, .f32⟩
  | .local _ .vmem, ⟨0, _⟩ => ⟨S6400x128, .bf16⟩
  | .local _ .vmem, ⟨1, _⟩ => ⟨S6400x128, .bf16⟩
  | .local _ .vmem, ⟨2, _⟩ => ⟨S6400x8, .bf16⟩
  | .local _ .vmem, ⟨3, _⟩ => ⟨S6400x8, .bf16⟩
  | .local _ .vmem, ⟨4, _⟩ => ⟨S6400x3, .f32⟩
  | .local _ .vmem, ⟨5, _⟩ => ⟨S6400x3, .f32⟩
  | .local _ .vmem, ⟨6, _⟩ => ⟨S128x64, .bf16⟩
  | .local _ .vmem, ⟨7, _⟩ => ⟨S8x64, .bf16⟩
  | .local _ .vmem, ⟨8, _⟩ => ⟨S1x64, .f32⟩
  | .local _ .vmem, ⟨9, _⟩ => ⟨S64x64, .bf16⟩
  | .local _ .vmem, ⟨10, _⟩ => ⟨S1x64, .f32⟩
  | .local _ .vmem, ⟨11, _⟩ => ⟨S64x1, .bf16⟩
  | .local _ .vmem, ⟨12, _⟩ => ⟨S6400x3, .f32⟩
  | .local _ .vmem, ⟨13, _⟩ => ⟨S6400x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  slices_S136x64_S128x64_0_0 : S136x64.Slices ![0, 0] S128x64
  slices_S136x64_S8x64_128_0 : S136x64.Slices ![128, 0] S8x64
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x8_S6400x8_0_0 : ∀ a, (![0, 0] : Fin 2 → Nat) a + S6400x8.size a ≤ S6400x8.size a
  h_S6400x8 : 0 < S6400x8.numel
  shapeCasts_S6400x8_S6400x8 : S6400x8.ShapeCasts S6400x8
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  broadcasts_S6400x1_S6400x3 : S6400x1.Broadcasts S6400x3
  bcast_S_S50000x3 : S_.BroadcastsInDim S50000x3 (![] : Fin 0 → Fin S50000x3.rank)
  gather_S50000x64_S1600000x1_S1600000x64_1_0_n_n_0_1_164_wf : GatherDims.WF S50000x64 S1600000x1 S1600000x64 [1] [0] [] [0] [] 1 ![1, 64]
  gather_S50000x3_S1600000x1_S1600000x3_1_0_n_n_0_1_13_wf : GatherDims.WF S50000x3 S1600000x1 S1600000x3 [1] [0] [] [0] [] 1 ![1, 3]
  dot_S6400x128_S128x64_S6400x64_1_0_0_1_n_n_wf : DotDims.WF S6400x128 S128x64 S6400x64 [1] [0] [0] [1] [] []
  dot_S6400x8_S8x64_S6400x64_1_0_0_1_n_n_wf : DotDims.WF S6400x8 S8x64 S6400x64 [1] [0] [0] [1] [] []
  dot_S6400x64_S64x64_S6400x64_1_0_0_1_n_n_wf : DotDims.WF S6400x64 S64x64 S6400x64 [1] [0] [0] [1] [] []
  dot_S6400x64_S64x1_S6400x1_1_0_0_1_n_n_wf : DotDims.WF S6400x64 S64x1 S6400x1 [1] [0] [0] [1] [] []
  scatter_S50000x3_S1600000x1_S1600000x3_1_0_0_1_wf : ScatterDims.WF S50000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x8.size a ≤ S1600000x8.size a
  hwx0_1 : ∀ i : grid0.Coords, EltTy.bits .bf16 = 32 ∨ (Rect.block (s := S1600000x8) S6400x8.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x3.size a ≤ S1600000x3.size a
  hwx0_2 : ∀ i : grid0.Coords, EltTy.bits .f32 = 32 ∨ (Rect.block (s := S1600000x3) S6400x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .bf16 = 32 ∨ (Rect.block (s := S8x64) S8x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .bf16 = 32 ∨ (Rect.block (s := S64x1) S64x1.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x3.size a ≤ S1600000x3.size a
  hwx0_9 : ∀ i : grid0.Coords, EltTy.bits .f32 = 32 ∨ (Rect.block (s := S1600000x3) S6400x3.size (cc0_transform_9 i) (hinb0_9 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x8_S8x64_S6400x64_1_0_0_1_n_n : DotDims S6400x8 S8x64 S6400x64 where
  lhsContracting := [1]
  rhsContracting := [0]
  lhsNonContracting := [0]
  rhsNonContracting := [1]
  lhsBatch := []
  rhsBatch := []
  wf := dot_S6400x8_S8x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

abbrev win0_0 : Pipeline.Window sig grid0 :=
  Pipeline.Window.ofSpec (Memref.whole main_v19) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S6400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S6400x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S6400x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x136 : Shape := ⟨2, ![1600000, 136]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x1600000, .i32⟩
  | .hbm, ⟨3, _⟩ => ⟨S1600000x8, .f32⟩
  | .hbm, ⟨4, _⟩ => ⟨S136x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x3, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x3, .f32⟩
  | .hbm, ⟨31, _⟩ => ⟨S1600000x3, .f32⟩
  | .hbm, ⟨32, _⟩ => ⟨S1600000x3, .f32⟩
  | .hbm, ⟨33, _⟩ => ⟨S_, .f32⟩
  | .hbm, ⟨34, _⟩ => ⟨S1600000, .f32⟩
  | .hbm, ⟨35, _⟩ => ⟨S1600000x1, .f32⟩
  | .hbm, ⟨36, _⟩ => ⟨S_, .f32⟩
  | .hbm, ⟨37, _⟩ => ⟨S1600000x1, .f32⟩
  | .hbm, ⟨38, _⟩ => ⟨S1600000x1, .f32⟩
  | .hbm, ⟨39, _⟩ => ⟨S1600000x1, .f32⟩
  | .hbm, ⟨40, _⟩ => ⟨S_, .f32⟩
  | .hbm, ⟨41, _⟩ => ⟨S1600000x1, .f32⟩
  | .hbm, ⟨42, _⟩ => ⟨S1600000x1, .f32⟩
  | .hbm, ⟨43, _⟩ => ⟨S1600000x3, .f32⟩
  | .hbm, ⟨44, _⟩ => ⟨S1600000x3, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x136, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S1600000x64, .f32⟩
  | .hbm, ⟨78, _⟩ => ⟨S1x64, .f32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S1600000x1, .f32⟩
  | .hbm, ⟨91, _⟩ => ⟨S1600000x3, .f32⟩
  | .hbm, ⟨92, _⟩ => ⟨S1600000x3, .f32⟩
  | .hbm, ⟨93, _⟩ => ⟨S_, .f32⟩
  | .hbm, ⟨94, _⟩ => ⟨S50000x3, .f32⟩
  | .hbm, ⟨95, _⟩ => ⟨S1600000x1, .i32⟩
  | .hbm, ⟨96, _⟩ => ⟨S50000x3, .f32⟩
  | .hbm, ⟨97, _⟩ => ⟨S_, .f32⟩
  | .hbm, ⟨98, _⟩ => ⟨S50000x3, .f32⟩
  | .hbm, ⟨99, _⟩ => ⟨S50000x3, .f32⟩
  | .hbm, ⟨100, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  concatenates_S1600000x64_S1600000x64_S1600000x8_S1600000x136_d1 : Shape.Concatenates [S1600000x64, S1600000x64, S1600000x8] S1600000x136 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x3 : S_.BroadcastsInDim S50000x3 (![] : Fin 0 → Fin S50000x3.rank)
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S1600000x136_S136x64_S1600000x64_1_0_0_1_n_n_wf : DotDims.WF S1600000x136 S136x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S50000x3_S1600000x1_S1600000x3_1_0_0_1_wf : ScatterDims.WF S50000x3 S1600000x1 S1600000x3 [1] [0] [0] 1

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x136_S136x64_S1600000x64_1_0_0_1_n_n : DotDims S1600000x136 S136x64 S1600000x64 where
  lhsContracting := [1]
  rhsContracting := [0]
  lhsNonContracting := [0]
  rhsNonContracting := [1]
  lhsBatch := []
  rhsBatch := []
  wf := dot_S1600000x136_S136x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

class Facts : Prop extends Facts₀ where

variable [Facts]
-- ==== Proof.EdgeSpec.lean ====
/-
  The edge network of one message-passing step, on the extended reals, as functions of one edge's rows.

  For an edge with feature row `a` (the two gathered node rows side by side, 128 entries) and attribute row `b`
  (8 entries) the network computes a scalar gate
      gate = ∑ₖ₂ silu (∑ₖ₁ silu ((∑ₖ a k · Wc k k₁ + ∑ₖ b k · We k k₁) + B₁ k₁) · W₂ k₁ k₂ + B₂ k₂) · W₃ k₂,
  with silu x = x · (1 / (1 + e⁻ˣ)). The first layer may equally be written with ONE weight matrix of 136 rows
  applied to the 136-entry row (first node row, second node row, attributes) laid end to end: a sum over 136 terms
  cut after the first 128 is the sum of the two partial sums. That is a fact about finite sums in a commutative
  monoid, so it holds on the extended reals with no finiteness assumption.
-/
import Idealize.ShloMosaic.PureOps.Ideal
import Mathlib.Algebra.BigOperators.Fin

noncomputable section

open scoped BigOperators

namespace Cert.EdgeNet

open Idealize.ShloMosaic

/-- `silu x = x · σ(x)`, σ the logistic function `1 / (1 + e⁻ˣ)` on the extended reals. -/
def silu (x : EReal) : EReal := x * Ideal.logistic x

/-- The first hidden layer at unit `j`: the feature row against the upper 128 weight rows, the attribute row against
    the lower 8, the bias, then silu. -/
def hidden1 (a : Fin 128 → EReal) (b : Fin 8 → EReal) (Wc : Fin 128 → Fin 64 → EReal) (We : Fin 8 → Fin 64 → EReal)
    (B1 : Fin 64 → EReal) (j : Fin 64) : EReal :=
  silu ((∑ k, a k * Wc k j + ∑ k, b k * We k j) + B1 j)

/-- The second hidden layer at unit `j`. -/
def hidden2 (h : Fin 64 → EReal) (W2 : Fin 64 → Fin 64 → EReal) (B2 : Fin 64 → EReal) (j : Fin 64) : EReal :=
  silu (∑ k, h k * W2 k j + B2 j)

/-- The edge's scalar gate: the second hidden layer against the output weights. -/
def gate (a : Fin 128 → EReal) (b : Fin 8 → EReal) (Wc : Fin 128 → Fin 64 → EReal) (We : Fin 8 → Fin 64 → EReal)
    (B1 : Fin 64 → EReal) (W2 : Fin 64 → Fin 64 → EReal) (B2 : Fin 64 → EReal) (W3 : Fin 64 → EReal) : EReal :=
  ∑ k, hidden2 (hidden1 a b Wc We B1) W2 B2 k * W3 k

/-- Two rows of 64 entries laid end to end. -/
def join2 (u v : Fin 64 → EReal) : Fin 128 → EReal := fun k =>
  if h : k.val < 64 then u ⟨k.val, h⟩ else v ⟨k.val - 64, by have := k.isLt; omega⟩

/-- Two rows of 64 entries and one of 8 laid end to end. -/
def join3 (u v : Fin 64 → EReal) (w : Fin 8 → EReal) : Fin 136 → EReal := fun k =>
  if h : k.val < 64 then u ⟨k.val, h⟩
  else if h2 : k.val < 128 then v ⟨k.val - 64, by omega⟩
  else w ⟨k.val - 128, by have := k.isLt; omega⟩

/-- A weighted sum over the 136-entry row is the weighted sum over its first 128 entries plus the one over its last 8. -/
theorem sum_join3 (u v : Fin 64 → EReal) (w : Fin 8 → EReal) (W : Fin 136 → EReal) :
    ∑ k, join3 u v w k * W k
      = ∑ k : Fin 128, join2 u v k * W ⟨k.val, by have := k.isLt; omega⟩
        + ∑ k : Fin 8, w k * W ⟨128 + k.val, by have := k.isLt; omega⟩ := by
  have h := Fin.sum_univ_add (a := 128) (b := 8) (fun k : Fin (128 + 8) => join3 u v w k * W k)
  refine h.trans ?_
  refine congrArg₂ (· + ·) (Finset.sum_congr rfl fun k _ => ?_) (Finset.sum_congr rfl fun k _ => ?_)
  · have hk := k.isLt
    refine congrArg₂ (· * ·) ?_ rfl
    show join3 u v w (Fin.castAdd 8 k) = join2 u v k
    unfold join3 join2
    by_cases h1 : k.val < 64
    · rw [dif_pos (show (Fin.castAdd 8 k).val < 64 from h1), dif_pos h1]; rfl
    · rw [dif_neg (show ¬ (Fin.castAdd 8 k).val < 64 from h1), dif_pos (show (Fin.castAdd 8 k).val < 128 from hk), dif_neg h1]; rfl
  · have hk := k.isLt
    refine congrArg₂ (· * ·) ?_ rfl
    show join3 u v w (Fin.natAdd 128 k) = w k
    unfold join3
    have e : (Fin.natAdd 128 k).val = 128 + k.val := rfl
    rw [dif_neg (by rw [e]; omega), dif_neg (by rw [e]; omega)]
    exact congrArg w (Fin.ext (by show (Fin.natAdd 128 k).val - 128 = k.val; rw [e]; omega))

/-- The first layer over the whole 136-row weight matrix `W` is the first layer over its two row blocks. -/
theorem hidden1_whole (u v : Fin 64 → EReal) (w : Fin 8 → EReal) (W : Fin 136 → Fin 64 → EReal) (B1 : Fin 64 → EReal)
    (j : Fin 64) :
    silu (∑ k, join3 u v w k * W k j + B1 j)
      = hidden1 (join2 u v) w (fun k j => W ⟨k.val, by have := k.isLt; omega⟩ j)
          (fun k j => W ⟨128 + k.val, by have := k.isLt; omega⟩ j) B1 j := by
  unfold hidden1
  rw [sum_join3 u v w (fun k => W k j)]

end Cert.EdgeNet

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelPayload.lean ====
/-
  What the kernel body stores, read at an entry.

  The body works on one block of 6400 edges. It multiplies the feature rows by the upper weight block and the
  attribute rows by the lower one, adds the bias, applies silu (the value times its logistic), repeats with the
  second layer, contracts with the output weights to one scalar per edge, and scales the edge's three normalised
  coordinate differences by that scalar. Every step acts row by row, so entry (r, d) of the stored block is
      diff (r, d) · gate (feature row r) (attribute row r) (the weights),
  the gate being the edge network of the specification. On the extended reals the roundings to the narrow format
  on the way into each product are the identity, and a product into the zero accumulator is the plain sum.
-/
import proofs.«150705_j19748259627798_2_alg».proof.Proof.Gen.KernelIdeal.Skeleton
import proofs.«150705_j19748259627798_2_alg».proof.Proof.EdgeSpec
import proofs.«150705_j19748259627798_2_alg».proof.Proof.LibPlainDot
import proofs.«150705_j19748259627798_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.EdgeNet

/-- A layer's pre-activation with two products: entry (r, j) of `(x·A + y·B) + bias` (bias one row, repeated down
    the rows) is the two row-by-column sums plus the bias entry j. -/
theorem two_products_bias (x : FVec Ideal S6400x128 .bf16) (A : FVec Ideal S128x64 .bf16)
    (y : FVec Ideal S6400x8 .bf16) (B : FVec Ideal S8x64 .bf16) (bias : FVec Ideal S1x64 .f32)
    (r : Fin 6400) (j : Fin 64) :
    addf (addf (matmul dot_S6400x128_S128x64_S6400x64_1_0_0_1_n_n none x A (constant (F := Ideal) S6400x64 .f32 0x00000000#32))
        (matmul dot_S6400x8_S8x64_S6400x64_1_0_0_1_n_n none y B (constant (F := Ideal) S6400x64 .f32 0x00000000#32)))
      (broadcastTo S6400x64 bias broadcasts_S1x64_S6400x64) (ix2 r j)
    = (∑ k : Fin 128, x (ix2 r k) * A (ix2 k j) + ∑ k : Fin 8, y (ix2 r k) * B (ix2 k j)) + bias (ix2 (0 : Fin 1) j) :=
  congrArg₂ (· + ·)
    (congrArg₂ (· + ·)
      (PlainDot.matmul_zero_apply dot_S6400x128_S128x64_S6400x64_1_0_0_1_n_n rfl none x A (ix2 r j))
      (PlainDot.matmul_zero_apply dot_S6400x8_S8x64_S6400x64_1_0_0_1_n_n rfl none y B (ix2 r j)))
    (broadcastTo_1b_ab_apply bias broadcasts_S1x64_S6400x64 r j)

/-- A layer's pre-activation with one product: entry (r, j) of `x·A + bias`. -/
theorem product_bias (x : FVec Ideal S6400x64 .bf16) (A : FVec Ideal S64x64 .bf16) (bias : FVec Ideal S1x64 .f32)
    (r : Fin 6400) (j : Fin 64) :
    addf (matmul dot_S6400x64_S64x64_S6400x64_1_0_0_1_n_n none x A (constant (F := Ideal) S6400x64 .f32 0x00000000#32))
      (broadcastTo S6400x64 bias broadcasts_S1x64_S6400x64) (ix2 r j)
    = ∑ k : Fin 64, x (ix2 r k) * A (ix2 k j) + bias (ix2 (0 : Fin 1) j) :=
  congrArg₂ (· + ·)
    (PlainDot.matmul_zero_apply dot_S6400x64_S64x64_S6400x64_1_0_0_1_n_n rfl none x A (ix2 r j))
    (broadcastTo_1b_ab_apply bias broadcasts_S1x64_S6400x64 r j)

/-- The output contraction, one scalar per row, repeated across the three columns: entry (r, d). -/
theorem column_product (x : FVec Ideal S6400x64 .bf16) (A : FVec Ideal S64x1 .bf16) (r : Fin 6400) (d : Fin 3) :
    broadcastTo S6400x3 (matmul dot_S6400x64_S64x1_S6400x1_1_0_0_1_n_n none x A (constant (F := Ideal) S6400x1 .f32 0x00000000#32))
      broadcasts_S6400x1_S6400x3 (ix2 r d)
    = ∑ k : Fin 64, x (ix2 r k) * A (ix2 k (0 : Fin 1)) :=
  (broadcastTo_a1_ab_apply _ broadcasts_S6400x1_S6400x3 r d).trans
    (PlainDot.matmul_zero_apply dot_S6400x64_S64x1_S6400x1_1_0_0_1_n_n rfl none x A (ix2 r (0 : Fin 1)))

/-- **The stored block at an entry**: the coordinate difference times the edge's gate. -/
theorem pay_apply (v0 : FVec Ideal S6400x128 .bf16) (v2 : FVec Ideal S6400x8 .bf16) (v4 : FVec Ideal S128x64 .bf16)
    (v6 : FVec Ideal S8x64 .bf16) (v11 : FVec Ideal S1x64 .f32) (v17 : FVec Ideal S64x64 .bf16)
    (v21 : FVec Ideal S1x64 .f32) (v27 : FVec Ideal S64x1 .bf16) (v31 : FVec Ideal S6400x3 .f32)
    (r : Fin 6400) (d : Fin 3) :
    k0_pay1 (F := Ideal) v0 v2 v4 v6 v11 v17 v21 v27 v31 (ix2 r d)
      = v31 (ix2 r d) * gate (fun k => v0 (ix2 r k)) (fun k => v2 (ix2 r k)) (fun k j => v4 (ix2 k j))
          (fun k j => v6 (ix2 k j)) (fun j => v11 (ix2 (0 : Fin 1) j)) (fun k j => v17 (ix2 k j))
          (fun j => v21 (ix2 (0 : Fin 1) j)) (fun k => v27 (ix2 k (0 : Fin 1))) := by
  unfold k0_pay1
  simp only [shapeCast_self]
  refine congrArg₂ (· * ·) rfl ?_
  refine (column_product _ _ r d).trans ?_
  unfold gate
  refine Finset.sum_congr rfl fun k2 _ => congrArg₂ (· * ·) ?_ rfl
  -- the second hidden layer at (r, k2)
  show silu _ = hidden2 _ _ _ k2
  unfold hidden2
  refine congrArg silu ?_
  refine (product_bias _ _ _ r k2).trans ?_
  refine congrArg₂ (· + ·) (Finset.sum_congr rfl fun k1 _ => congrArg₂ (· * ·) ?_ rfl) rfl
  -- the first hidden layer at (r, k1)
  show silu _ = hidden1 _ _ _ _ _ k1
  unfold hidden1
  exact congrArg silu (two_products_bias _ _ _ _ _ r k1)

end Cert.KernelIdeal.Payload

end
-- ==== Proof.KernelTerm.lean ====
/-
  One edge's scaled coordinate difference, and the array of them, as functions of the nine operand arrays.

  Entry (e, d) of the result is the normalised difference (e, d) times the gate of edge e — the edge network of the
  specification applied to row e of the feature array and row e of the attribute array, with the weights and biases
  read from their arrays. A block of 6400 stored values is the restriction of that function to the block's rows
  whenever the block's streamed operands are those rows of their arrays and its resident operands are their arrays.
-/
import proofs.«150705_j19748259627798_2_alg».proof.Proof.Gen.KernelIdeal.Frame
import proofs.«150705_j19748259627798_2_alg».proof.Proof.KernelPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.EdgeNet

/-- Edge `e`'s scaled difference in coordinate `d`, from the nine operand arrays. -/
def edgeTerm (D : S1600000x3.Idx → EReal) (H : S1600000x128.Idx → EReal) (A : S1600000x8.Idx → EReal)
    (Wc : S128x64.Idx → EReal) (We : S8x64.Idx → EReal) (B1 : S1x64.Idx → EReal) (W2 : S64x64.Idx → EReal)
    (B2 : S1x64.Idx → EReal) (W3 : S64x1.Idx → EReal) (e : Fin 1600000) (d : Fin 3) : EReal :=
  D (ix2 e d) * gate (fun k => H (ix2 e k)) (fun k => A (ix2 e k)) (fun k j => Wc (ix2 k j)) (fun k j => We (ix2 k j))
    (fun j => B1 (ix2 (0 : Fin 1) j)) (fun k j => W2 (ix2 k j)) (fun j => B2 (ix2 (0 : Fin 1) j)) (fun k => W3 (ix2 k (0 : Fin 1)))

/-- The whole array of scaled differences. -/
def transOf (D : S1600000x3.Idx → EReal) (H : S1600000x128.Idx → EReal) (A : S1600000x8.Idx → EReal)
    (Wc : S128x64.Idx → EReal) (We : S8x64.Idx → EReal) (B1 : S1x64.Idx → EReal) (W2 : S64x64.Idx → EReal)
    (B2 : S1x64.Idx → EReal) (W3 : S64x1.Idx → EReal) : S1600000x3.Idx → EReal :=
  fun i => edgeTerm D H A Wc We B1 W2 B2 W3 ⟨(i 0).val, idx2_lt0 i⟩ ⟨(i 1).val, idx2_lt1 i⟩

theorem transOf_ix2 (D : S1600000x3.Idx → EReal) (H : S1600000x128.Idx → EReal) (A : S1600000x8.Idx → EReal)
    (Wc : S128x64.Idx → EReal) (We : S8x64.Idx → EReal) (B1 : S1x64.Idx → EReal) (W2 : S64x64.Idx → EReal)
    (B2 : S1x64.Idx → EReal) (W3 : S64x1.Idx → EReal) (e : Fin 1600000) (d : Fin 3) :
    transOf D H A Wc We B1 W2 B2 W3 (ix2 e d) = edgeTerm D H A Wc We B1 W2 B2 W3 e d := rfl

/-- One block of the stored values is the restriction of `transOf` to the block's rows, whenever the streamed blocks
    are the corresponding rows of their arrays and the resident blocks are their arrays. -/
theorem block_entry (x0 : FVec Ideal S6400x128 .bf16) (x1 : FVec Ideal S6400x8 .bf16) (x2 : FVec Ideal S6400x3 .f32)
    (x3 : FVec Ideal S128x64 .bf16) (x4 : FVec Ideal S8x64 .bf16) (x5 : FVec Ideal S1x64 .f32)
    (x6 : FVec Ideal S64x64 .bf16) (x7 : FVec Ideal S1x64 .f32) (x8 : FVec Ideal S64x1 .bf16)
    (D : S1600000x3.Idx → EReal) (H : S1600000x128.Idx → EReal) (A : S1600000x8.Idx → EReal)
    (Wc : S128x64.Idx → EReal) (We : S8x64.Idx → EReal) (B1 : S1x64.Idx → EReal) (W2 : S64x64.Idx → EReal)
    (B2 : S1x64.Idx → EReal) (W3 : S64x1.Idx → EReal) (r : Fin 6400) (d : Fin 3) (e : Fin 1600000)
    (h0 : ∀ k, x0 (ix2 r k) = H (ix2 e k)) (h1 : ∀ k, x1 (ix2 r k) = A (ix2 e k)) (h2 : x2 (ix2 r d) = D (ix2 e d))
    (h3 : ∀ k j, x3 (ix2 k j) = Wc (ix2 k j)) (h4 : ∀ k j, x4 (ix2 k j) = We (ix2 k j))
    (h5 : ∀ j, x5 (ix2 (0 : Fin 1) j) = B1 (ix2 (0 : Fin 1) j)) (h6 : ∀ k j, x6 (ix2 k j) = W2 (ix2 k j))
    (h7 : ∀ j, x7 (ix2 (0 : Fin 1) j) = B2 (ix2 (0 : Fin 1) j)) (h8 : ∀ k, x8 (ix2 k (0 : Fin 1)) = W3 (ix2 k (0 : Fin 1))) :
    k0_pay1 (F := Ideal) x0 x1 x3 x4 x5 x6 x7 x8 x2 (ix2 r d) = edgeTerm D H A Wc We B1 W2 B2 W3 e d := by
  rw [Payload.pay_apply]
  unfold edgeTerm
  simp only [h0, h1, h2, h3, h4, h5, h6, h7, h8]

end Cert.KernelIdeal.Blocks

end
-- ==== Proof.KernelIndexMaps.lean ====
/-
  Where each operand's block sits at each of the 250 grid points, decided once over the grid: the three streamed
  operands and the result at row block t and column block 0, the six resident operands at block (0, 0).
-/
import proofs.«150705_j19748259627798_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen

theorem hz : (![0, 0] : Fin 2 → Nat) = fun _ => 0 := funext fun a => by fin_cases a <;> rfl

/-- The printed index maps over the grid: the streamed operands and the result are at row block `t`, column block 0;
    the resident operands at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

end Cert.KernelIdeal.Blocks

end
-- ==== Proof.KernelBlocksA.lean ====
/-
  The streamed operand blocks at a grid point, read entry by entry from their arrays: a block's entry (r, k) is the
  array's entry at block index times block extent plus the coordinate inside the block, on each axis.
  The block's index is rewritten to the array's index first, so that the array itself is only ever a name here.
-/
import proofs.«150705_j19748259627798_2_alg».proof.Proof.Gen.KernelIdeal.Frame
import proofs.«150705_j19748259627798_2_alg».proof.Proof.KernelIndexMaps
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The feature block at point `t` is rows `6400·t + r` of the feature array. -/
theorem features_block (c : Dev nD) (t : Fin cfg0.N) (r : Fin 6400) (k : Fin 128) (e : Fin 1600000)
    (he : e.val = 6400 * t.val + r.val) :
    (iblk m c 0 t : FVec Ideal S6400x128 .bf16) (ix2 r k) = (V m c main_v19 : S1600000x128.Idx → EReal) (ix2 e k) := by
  obtain ⟨⟨q0, q1⟩, -⟩ := idx_facts t
  have hidx : ((cfg0.win 0).blk t).view.emb (ix2 r k) = (ix2 e k : S1600000x128.Idx) := funext fun a => Fin.ext (by
    match a with
    | ⟨0, _⟩ => show win0_0.index t (0 : Fin 2) * 6400 + 1 * r.val = e.val; rw [q0, he]; omega
    | ⟨1, _⟩ => show win0_0.index t (1 : Fin 2) * 128 + 1 * k.val = k.val; rw [q1]; omega)
  unfold iblk
  rw [View.read_apply, hidx]
  exact cast_eq _ _

/-- The attribute block at point `t` is rows `6400·t + r` of the attribute array. -/
theorem attrs_block (c : Dev nD) (t : Fin cfg0.N) (r : Fin 6400) (k : Fin 8) (e : Fin 1600000)
    (he : e.val = 6400 * t.val + r.val) :
    (iblk m c 1 t : FVec Ideal S6400x8 .bf16) (ix2 r k) = (V m c main_v20 : S1600000x8.Idx → EReal) (ix2 e k) := by
  obtain ⟨-, ⟨q0, q1⟩, -⟩ := idx_facts t
  have hidx : ((cfg0.win 1).blk t).view.emb (ix2 r k) = (ix2 e k : S1600000x8.Idx) := funext fun a => Fin.ext (by
    match a with
    | ⟨0, _⟩ => show win0_1.index t (0 : Fin 2) * 6400 + 1 * r.val = e.val; rw [q0, he]; omega
    | ⟨1, _⟩ => show win0_1.index t (1 : Fin 2) * 8 + 1 * k.val = k.val; rw [q1]; omega)
  unfold iblk
  rw [View.read_apply, hidx]
  exact cast_eq _ _

/-- The difference block at point `t` is rows `6400·t + r` of the difference array. -/
theorem diff_block (c : Dev nD) (t : Fin cfg0.N) (r : Fin 6400) (d : Fin 3) (e : Fin 1600000)
    (he : e.val = 6400 * t.val + r.val) :
    (iblk m c 2 t : FVec Ideal S6400x3 .f32) (ix2 r d) = (V m c main_v45 : S1600000x3.Idx → EReal) (ix2 e d) := by
  obtain ⟨-, -, ⟨q0, q1⟩, -⟩ := idx_facts t
  have hidx : ((cfg0.win 2).blk t).view.emb (ix2 r d) = (ix2 e d : S1600000x3.Idx) := funext fun a => Fin.ext (by
    match a with
    | ⟨0, _⟩ => show win0_2.index t (0 : Fin 2) * 6400 + 1 * r.val = e.val; rw [q0, he]; omega
    | ⟨1, _⟩ => show win0_2.index t (1 : Fin 2) * 3 + 1 * d.val = d.val; rw [q1]; omega)
  unfold iblk
  rw [View.read_apply, hidx]
  exact cast_eq _ _

end Cert.KernelIdeal.Blocks

end
-- ==== Proof.KernelBlocksB.lean ====
/-
  The first-layer weight and bias operand blocks at a grid point, read entry by entry from their arrays: a block's entry (r, k) is the
  array's entry at block index times block extent plus the coordinate inside the block, on each axis.
-/
import proofs.«150705_j19748259627798_2_alg».proof.Proof.Gen.KernelIdeal.Frame
import proofs.«150705_j19748259627798_2_alg».proof.Proof.KernelIndexMaps
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The upper weight block is the whole array at every point. -/
theorem w1_upper_block (c : Dev nD) (t : Fin cfg0.N) (k : Fin 128) (j : Fin 64) :
    (iblk m c 3 t : FVec Ideal S128x64 .bf16) (ix2 k j) = (V m c main_v47 : S128x64.Idx → EReal) (ix2 k j) := by
  obtain ⟨-, -, -, ⟨q0, q1⟩, -⟩ := idx_facts t
  unfold iblk
  rw [View.read_apply]
  refine congrArg (V m c main_v47 : S128x64.Idx → EReal) (funext fun a => Fin.ext ?_)
  match a with
  | ⟨0, _⟩ => show win0_3.index t (0 : Fin 2) * 128 + 1 * k.val = k.val; rw [q0]; omega
  | ⟨1, _⟩ => show win0_3.index t (1 : Fin 2) * 64 + 1 * j.val = j.val; rw [q1]; omega

/-- The lower weight block is the whole array at every point. -/
theorem w1_lower_block (c : Dev nD) (t : Fin cfg0.N) (k : Fin 8) (j : Fin 64) :
    (iblk m c 4 t : FVec Ideal S8x64 .bf16) (ix2 k j) = (V m c main_v49 : S8x64.Idx → EReal) (ix2 k j) := by
  obtain ⟨-, -, -, -, ⟨q0, q1⟩, -⟩ := idx_facts t
  unfold iblk
  rw [View.read_apply]
  refine congrArg (V m c main_v49 : S8x64.Idx → EReal) (funext fun a => Fin.ext ?_)
  match a with
  | ⟨0, _⟩ => show win0_4.index t (0 : Fin 2) * 8 + 1 * k.val = k.val; rw [q0]; omega
  | ⟨1, _⟩ => show win0_4.index t (1 : Fin 2) * 64 + 1 * j.val = j.val; rw [q1]; omega

/-- The first bias block is the whole one-row array at every point. -/
theorem b1_block (c : Dev nD) (t : Fin cfg0.N) (u : Fin 1) (j : Fin 64) :
    (iblk m c 5 t : FVec Ideal S1x64 .f32) (ix2 u j) = (V m c main_v50 : S1x64.Idx → EReal) (ix2 u j) := by
  obtain ⟨-, -, -, -, -, ⟨q0, q1⟩, -⟩ := idx_facts t
  unfold iblk
  rw [View.read_apply]
  refine congrArg (V m c main_v50 : S1x64.Idx → EReal) (funext fun a => Fin.ext ?_)
  match a with
  | ⟨0, _⟩ => show win0_5.index t (0 : Fin 2) * 1 + 1 * u.val = u.val; rw [q0]; omega
  | ⟨1, _⟩ => show win0_5.index t (1 : Fin 2) * 64 + 1 * j.val = j.val; rw [q1]; omega

end Cert.KernelIdeal.Blocks

end
-- ==== Proof.KernelBlocksC.lean ====
/-
  The second-layer and output-layer operand blocks at a grid point, read entry by entry from their arrays: a block's entry (r, k) is the
  array's entry at block index times block extent plus the coordinate inside the block, on each axis.
-/
import proofs.«150705_j19748259627798_2_alg».proof.Proof.Gen.KernelIdeal.Frame
import proofs.«150705_j19748259627798_2_alg».proof.Proof.KernelIndexMaps
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The second weight block is the whole array at every point. -/
theorem w2_block (c : Dev nD) (t : Fin cfg0.N) (k : Fin 64) (j : Fin 64) :
    (iblk m c 6 t : FVec Ideal S64x64 .bf16) (ix2 k j) = (V m c main_v52 : S64x64.Idx → EReal) (ix2 k j) := by
  obtain ⟨-, -, -, -, -, -, ⟨q0, q1⟩, -⟩ := idx_facts t
  unfold iblk
  rw [View.read_apply]
  refine congrArg (V m c main_v52 : S64x64.Idx → EReal) (funext fun a => Fin.ext ?_)
  match a with
  | ⟨0, _⟩ => show win0_6.index t (0 : Fin 2) * 64 + 1 * k.val = k.val; rw [q0]; omega
  | ⟨1, _⟩ => show win0_6.index t (1 : Fin 2) * 64 + 1 * j.val = j.val; rw [q1]; omega

/-- The second bias block is the whole one-row array at every point. -/
theorem b2_block (c : Dev nD) (t : Fin cfg0.N) (u : Fin 1) (j : Fin 64) :
    (iblk m c 7 t : FVec Ideal S1x64 .f32) (ix2 u j) = (V m c main_v51 : S1x64.Idx → EReal) (ix2 u j) := by
  obtain ⟨-, -, -, -, -, -, -, ⟨q0, q1⟩, -⟩ := idx_facts t
  unfold iblk
  rw [View.read_apply]
  refine congrArg (V m c main_v51 : S1x64.Idx → EReal) (funext fun a => Fin.ext ?_)
  match a with
  | ⟨0, _⟩ => show win0_7.index t (0 : Fin 2) * 1 + 1 * u.val = u.val; rw [q0]; omega
  | ⟨1, _⟩ => show win0_7.index t (1 : Fin 2) * 64 + 1 * j.val = j.val; rw [q1]; omega

/-- The output weight block is the whole one-column array at every point. -/
theorem w3_block (c : Dev nD) (t : Fin cfg0.N) (k : Fin 64) (u : Fin 1) :
    (iblk m c 8 t : FVec Ideal S64x1 .bf16) (ix2 k u) = (V m c main_v53 : S64x1.Idx → EReal) (ix2 k u) := by
  obtain ⟨-, -, -, -, -, -, -, -, ⟨q0, q1⟩, -⟩ := idx_facts t
  unfold iblk
  rw [View.read_apply]
  refine congrArg (V m c main_v53 : S64x1.Idx → EReal) (funext fun a => Fin.ext ?_)
  match a with
  | ⟨0, _⟩ => show win0_8.index t (0 : Fin 2) * 64 + 1 * k.val = k.val; rw [q0]; omega
  | ⟨1, _⟩ => show win0_8.index t (1 : Fin 2) * 1 + 1 * u.val = u.val; rw [q1]; omega

end Cert.KernelIdeal.Blocks

end
-- ==== Proof.KernelArray.lean ====
/-
  The result array of the region after the run.

  What grid point t writes back is its 6400 rows of ONE function of the operand arrays — entry (e, d) the difference
  (e, d) times the gate of edge e — because each streamed block is rows 6400·t + r of its array and each resident
  block is its whole array. The 250 row ranges [6400·t, 6400·t + 6400) tile the 1,600,000 rows (edge e lies in the
  range of t = e / 6400), so after the last write-back the array is that function at every entry.
-/
import proofs.«150705_j19748259627798_2_alg».proof.Proof.Gen.KernelIdeal.Frame
import proofs.«150705_j19748259627798_2_alg».proof.Proof.KernelTerm
import proofs.«150705_j19748259627798_2_alg».proof.Proof.KernelIndexMaps
import proofs.«150705_j19748259627798_2_alg».proof.Proof.KernelBlocksA
import proofs.«150705_j19748259627798_2_alg».proof.Proof.KernelBlocksB
import proofs.«150705_j19748259627798_2_alg».proof.Proof.KernelBlocksC
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.EdgeNet

variable (m : (ℓ : Loc nD τ sig) → Buf (Elt Ideal) ℓ)

/-- The array of scaled differences, of the operand arrays as the region finds them. -/
abbrev trans (c : Dev nD) : S1600000x3.Idx → EReal :=
  transOf (V m c main_v45) (V m c main_v19) (V m c main_v20) (V m c main_v47) (V m c main_v49) (V m c main_v50)
    (V m c main_v52) (V m c main_v51) (V m c main_v53)

/-- Row `r` of the block at point `t` is edge `6400·t + r`, one of the 1,600,000 edges. -/
theorem row_lt (t : Fin cfg0.N) {r : Nat} (hr : r < 6400) : 6400 * t.val + r < 1600000 := by
  have h1 := t.isLt
  have h2 : cfg0.N = 250 := N_0
  omega

/-- The edge that row `r` of the block at point `t` holds. -/
def edgeOf (t : Fin cfg0.N) (r : Fin 6400) : Fin 1600000 := ⟨6400 * t.val + r.val, row_lt t r.isLt⟩

/-- The stored block at point `t`, entry (r, d), is the result function at edge `6400·t + r`. -/
theorem stored_block (c : Dev nD) (t : Fin cfg0.N) (r : Fin 6400) (d : Fin 3) (e : Fin 1600000)
    (he : e.val = 6400 * t.val + r.val) :
    k0_pay1 (F := Ideal) (iblk m c 0 t) (iblk m c 1 t) (iblk m c 3 t) (iblk m c 4 t) (iblk m c 5 t) (iblk m c 6 t)
        (iblk m c 7 t) (iblk m c 8 t) (iblk m c 2 t) (ix2 r d)
      = trans m c (ix2 e d) :=
  block_entry (iblk m c 0 t) (iblk m c 1 t) (iblk m c 2 t) (iblk m c 3 t) (iblk m c 4 t) (iblk m c 5 t) (iblk m c 6 t)
    (iblk m c 7 t) (iblk m c 8 t)
    (V m c main_v45) (V m c main_v19) (V m c main_v20) (V m c main_v47) (V m c main_v49) (V m c main_v50)
    (V m c main_v52) (V m c main_v51) (V m c main_v53) r d e
    (fun k => features_block m c t r k e he) (fun k => attrs_block m c t r k e he) (diff_block m c t r d e he)
    (fun k j => w1_upper_block m c t k j) (fun k j => w1_lower_block m c t k j) (fun j => b1_block m c t 0 j)
    (fun k j => w2_block m c t k j) (fun j => b2_block m c t 0 j) (fun k => w3_block m c t k 0)

/-- The stored block at point `t` as one function of the position inside the block. -/
theorem stored_fun (c : Dev nD) (t : Fin cfg0.N) :
    (k0_pay1 (F := Ideal) (iblk m c 0 t) (iblk m c 1 t) (iblk m c 3 t) (iblk m c 4 t) (iblk m c 5 t) (iblk m c 6 t)
        (iblk m c 7 t) (iblk m c 8 t) (iblk m c 2 t) : S6400x3.Idx → EReal)
      = fun y => trans m c (ix2 (edgeOf t ⟨(y 0).val, idx2_lt0 y⟩) ⟨(y 1).val, idx2_lt1 y⟩) := by
  funext y
  obtain ⟨r, d, rfl⟩ : ∃ (r : Fin 6400) (d : Fin 3), y = ix2 r d := ⟨y 0, y 1, eq_ix2 y⟩
  exact stored_block m c t r d (edgeOf t r) rfl

/-- WHAT POINT `t` WRITES BACK is block `t` of the result function. -/
theorem flushed_eq (c : Dev nD) (t : Fin cfg0.N) :
    (dats m 0 c).flushed 9 t = ((cfg0.win 9).blk t).view.read (Elt Ideal) (trans m c) := by
  show (cfg0.win 9).cut (grid0.coords t) ((dats m 0 c).after 9 t) = _
  rw [after0_9]
  unfold out0_9
  rw [View.canon_unit_zero hz]
  simp only [View.ld_unit_zero (S := S6400x128) hz, View.ld_unit_zero (S := S6400x8) hz, View.ld_unit_zero (S := S6400x3) hz,
    View.ld_unit_zero (S := S128x64) hz, View.ld_unit_zero (S := S8x64) hz, View.ld_unit_zero (S := S1x64) hz,
    View.ld_unit_zero (S := S64x64) hz, View.ld_unit_zero (S := S64x1) hz]
  rw [stored_fun m c t]
  obtain ⟨-, -, -, -, -, -, -, -, -, ⟨q0, q1⟩⟩ := idx_facts t
  funext y
  have hy0 : (y 0).val < 6400 := (y 0).isLt
  have hy1 : (y 1).val < 3 := (y 1).isLt
  have hidx : ((cfg0.win 9).blk t).view.emb y = (ix2 (edgeOf t ⟨(y 0).val, hy0⟩) ⟨(y 1).val, hy1⟩ : S1600000x3.Idx) :=
    funext fun a => Fin.ext (by
      match a with
      | ⟨0, _⟩ => show win0_9.index t (0 : Fin 2) * 6400 + 1 * (y 0).val = 6400 * t.val + (y 0).val; rw [q0]; omega
      | ⟨1, _⟩ => show win0_9.index t (1 : Fin 2) * 3 + 1 * (y 1).val = (y 1).val; rw [q1]; omega)
  show trans m c (ix2 (edgeOf t ⟨(y 0).val, hy0⟩) ⟨(y 1).val, hy1⟩) = ((cfg0.win 9).blk t).view.read (Elt Ideal) (trans m c) y
  rw [View.read_apply, hidx]
  exact (cast_eq _ _).symm

/-- An entry of the array is in point `t`'s block iff each coordinate is in the block's range on its axis. -/
theorem mem_blk (t : Fin cfg0.N) (i : S1600000x3.Idx) :
    i ∈ ((cfg0.win 9).blk t).view.set ↔ ∀ a : Fin 2, win0_9.index t a * S6400x3.size a ≤ (i a).val
      ∧ (i a).val < win0_9.index t a * S6400x3.size a + S6400x3.size a := by
  show i ∈ ((View.whole main_v54).slice (win0_9.rect t)).set ↔ _
  rw [View.set_slice_whole, Rect.mem_set_unit]
  exact Iff.rfl

/-- THE ARRAY after the run is the result function: edge `e` lies in the rows of point `e / 6400`. -/
theorem final (c : Dev nD) : (dats m 0 c).arrAt 9 cfg0.N = trans m c :=
  (dats m 0 c).arrAt_eq_of_cover 9 (trans m c) (fun t _ => flushed_eq m c t) fun i => by
    have hi0 : (i 0).val < 1600000 := (i 0).isLt
    have hi1 : (i 1).val < 3 := (i 1).isLt
    have hN : cfg0.N = 250 := N_0
    have hq : (i 0).val / 6400 < cfg0.N := by rw [hN]; omega
    obtain ⟨-, -, -, -, -, -, -, -, -, ⟨q0, q1⟩⟩ := idx_facts ⟨(i 0).val / 6400, hq⟩
    refine ⟨⟨(i 0).val / 6400, hq⟩, flush0_9 _, ?_⟩
    rw [mem_blk]
    intro a
    match a with
    | ⟨0, _⟩ =>
      show win0_9.index ⟨(i 0).val / 6400, hq⟩ (0 : Fin 2) * 6400 ≤ (i 0).val
        ∧ (i 0).val < win0_9.index ⟨(i 0).val / 6400, hq⟩ (0 : Fin 2) * 6400 + 6400
      rw [q0]
      show (i 0).val / 6400 * 6400 ≤ (i 0).val ∧ (i 0).val < (i 0).val / 6400 * 6400 + 6400
      omega
    | ⟨1, _⟩ =>
      show win0_9.index ⟨(i 0).val / 6400, hq⟩ (1 : Fin 2) * 3 ≤ (i 1).val
        ∧ (i 1).val < win0_9.index ⟨(i 0).val / 6400, hq⟩ (1 : Fin 2) * 3 + 3
      rw [q1]
      omega

end Cert.KernelIdeal.Blocks

end
-- ==== Proof.SharedTail.lean ====
/-
  The last steps of the message-passing update, shared by both programs: the edges' scaled coordinate differences
  are summed onto their source nodes (a scatter-add into zeros, indexed by the first row of the edge list), the sums
  are divided by 100, and the result is added to the node coordinates.
-/
import proofs.«150705_j19748259627798_2_alg».proof.Proof.Gen.KernelIdeal
import Idealize.ShloMosaic.PureOps.Ideal

noncomputable section

namespace Cert.KernelIdeal.Tail

open Idealize.ShloMosaic Cert.KernelIdeal Cert.KernelIdeal.Gen

/-- `coord + (scatter-add of trans by source node) / 100`. -/
def tail (coord : FVec Ideal S50000x3 .f32) (rows : IVec S1600000 32) (trans : FVec Ideal S1600000x3 .f32) :
    FVec Ideal S50000x3 .f32 :=
  addf coord
    (Host.divf
      (Host.scatterAdd scatter_S50000x3_S1600000x1_S1600000x3_1_0_0_1
        (broadcastInDim S50000x3 ![] bcast_S_S50000x3 (constant (F := Ideal) S_ .f32 0x00000000#32))
        (broadcastInDim S1600000x1 ![0] bcast_S1600000_S1600000x1_0 rows) trans)
      (broadcastInDim S50000x3 ![] bcast_S_S50000x3 (constant (F := Ideal) S_ .f32 0x42C80000#32)))

end Cert.KernelIdeal.Tail

end
-- ==== Proof.KernelTail.lean ====
/-
  What the kernel program's last buffer holds when the run ends, in terms of the region's output array.

  The program is: host operations, one pipelined region, eight more host operations. The frame run leaves every buffer
  that is not an array of the pipeline at the value the eight operations compute from the region's exit contents, where
  the exit contents are the region-entry contents with the pipeline's ten arrays replaced by their final contents. The
  eight operations are the shared tail — scatter-add of the edges' scaled differences onto their source nodes, division
  by 100, addition to the node coordinates — and they read three buffers: the node coordinates (an argument, left as
  launched), the source-node vector (computed before the region, untouched by it) and the region's output array (the
  pipeline's last array). So the result is the tail of those three values; the output array's final contents enter only
  through a hypothesis naming them, and the region-entry contents are never opened.
-/
import proofs.«150705_j19748259627798_2_alg».proof.Proof.Gen.KernelIdeal.Frame
import proofs.«150705_j19748259627798_2_alg».proof.Proof.SharedTail
import Idealize.ShloMosaic.Lib.StableHlo.Run
set_option maxRecDepth 16384
noncomputable section
namespace Cert.KernelIdeal.TailRun
open Idealize.ShloMosaic Idealize.ShloMosaic.TcCoe Idealize.SL.Sem Idealize.ShloMosaic.StableHlo
open Cert.KernelIdeal Cert.KernelIdeal.Gen
variable (m : (ℓ : Loc nD τ sig) → Buf (Elt Ideal) ℓ)

/-- After the region the program runs eight host operations: a zero array, the source-node vector as a column, the
    scatter-add of the region's output array into the zeros by that column, the constant 100 as an array, the quotient,
    and its sum with the node coordinates. Read at the last operation's buffer they are the shared tail applied to the
    node coordinates as launched, the source-node vector as the region found it, and the region's output array: the
    first two are no arrays of the pipeline, so the region leaves them as it found them, and no host operation before
    the region writes the coordinates; the third is the pipeline's last array at its final contents. -/
theorem result_of_array (c : Dev nD) (T : S1600000x3.Idx → EReal) (hT : (dats m 0 c).arrAt 9 cfg0.N = T) :
    Pipeline.afterTail₀ cfgs (dats m) 0 (V0 m) [hostOps1] c main_v60
      = Cert.KernelIdeal.Tail.tail (m ((c : Thread nD τ).loc main_arg1)) (V m c main_v1) T := by
  unfold Pipeline.afterTail₀
  show StableHlo.after hostOps1 _ (Proc.devRef .tc main_v60) = _
  after_results
  -- the node coordinates: no array of the pipeline, and written by no host operation before the region
  have e1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  -- the source-node vector: no array of the pipeline
  have e2 : Pipeline.withArrays (cfgs 0).spec c (V0 m c) (fun w => (dats m 0 c).arrAt w (cfgs 0).N)
      (Proc.devRef .tc main_v1) = V m c main_v1 :=
    Pipeline.withArrays_of_ne _ c (V0 m c) _ main_v1
      (by exact (by decide : ∀ w, Pipeline.arrRef spec0 w ≠ main_v1))
  -- the region's output: the pipeline's last array, at its final contents
  have e3 : Pipeline.withArrays (cfgs 0).spec c (V0 m c) (fun w => (dats m 0 c).arrAt w (cfgs 0).N)
      (Proc.devRef .tc main_v54) = T :=
    (Pipeline.withArrays_arr spec0 launch0.win.arr_inj c _ _ 9).trans hT
  rw [e1, e2, e3]
  generalize V m c main_v1 = R
  generalize m ((c : Thread nD τ).loc main_arg1) = X
  rfl

end Cert.KernelIdeal.TailRun

end
-- ==== Proof.KernelRun.lean ====
/-
  The kernel program's run, read: its result buffer ends at the shared last steps applied to the node coordinates,
  the source-node vector and the array of scaled differences; its arguments end unchanged.

  The generated frame run states that every array of the pipeline ends at what the write-backs leave and every other
  buffer at what the operations after the region compute from those arrays. The result array of the region is the
  array of scaled differences (the cover argument), and the operations after the region are the shared tail.
-/
import proofs.«150705_j19748259627798_2_alg».proof.Proof.Gen.KernelIdeal.Frame
import proofs.«150705_j19748259627798_2_alg».proof.Proof.KernelArray
import proofs.«150705_j19748259627798_2_alg».proof.Proof.KernelTail

set_option maxRecDepth 16384

noncomputable section

open Idealize.ShloMosaic Idealize.ShloMosaic.TcCoe Idealize.SL.Sem

namespace Cert.KernelIdeal.RunValue

open Cert.KernelIdeal Cert.KernelIdeal.Gen

variable (m : (ℓ : Loc nD τ sig) → Buf (Elt Ideal) ℓ) (ρ : Dev nD → PrngReg)

/-- The result the kernel program computes on device `c`. -/
abbrev result (c : Dev nD) : S50000x3.Idx → EReal :=
  Cert.KernelIdeal.Tail.tail (m ((c : Thread nD τ).loc main_arg1)) (V m c main_v1) (Cert.KernelIdeal.Blocks.trans m c)

/-- Every weakly fair execution of the kernel program terminates with the result buffer at `result` and the
    arguments unchanged. -/
theorem run : θ_run defs (onTc (τ := τ) (main (F := Ideal))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v60 (Pipeline.mem_restRefs_of main_v60 (by decide) (by decide))).trans
        (Cert.KernelIdeal.TailRun.result_of_array m c _ (Cert.KernelIdeal.Blocks.final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RunValue

end
-- ==== Proof.KernelInputs.lean ====
/-
  What the region finds in each of its operand arrays, as a function of the launch arguments.

  Before the call the program prepares, from the arguments: the two gathered node-feature arrays laid side by side,
  the edge attributes, the normalised coordinate differences, the two row blocks of the first weight matrix, the two
  biases as one-row matrices, and the other two weight matrices. On the extended reals the roundings to the narrow
  float format are the identity, so each prepared array is the same composition of gathers, slices and arithmetic
  that the reference program applies to the same arguments; those compositions are named here by the reference's
  own stage functions, never opened.
-/
import proofs.«150705_j19748259627798_2_alg».proof.Proof.Gen.KernelIdeal.Frame
import proofs.«150705_j19748259627798_2_alg».proof.Proof.Gen.ReferenceIdeal.Read
import Idealize.ShloMosaic.Lib.StableHlo.Run

set_option maxRecDepth 16384

noncomputable section

namespace Cert.KernelIdeal.Inputs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The first row of the edge list, as the vector of source nodes. -/
theorem V_row (c : Dev nD) :
    (V m c main_v1 : S1600000.Idx → BitVec 32)
      = Cert.ReferenceIdeal.Read.val_main_v1 (F := Ideal) (m ((c : Thread nD τ).loc main_arg2)) := by
  show StableHlo.after hostOps0 (fun b => m (c, b)) (Proc.devRef .tc main_v1) = _
  after_results_simp
  rfl

/-- The feature array: the source nodes' rows and the target nodes' rows, side by side. -/
theorem V_features (c : Dev nD) :
    (V m c main_v19 : S1600000x128.Idx → EReal)
      = concatenate S1600000x128 1
          [⟨S1600000x64, Cert.ReferenceIdeal.Read.val_main_v35 (F := Ideal) (m ((c : Thread nD τ).loc main_arg0)) (m ((c : Thread nD τ).loc main_arg2))⟩,
           ⟨S1600000x64, Cert.ReferenceIdeal.Read.val_main_v42 (F := Ideal) (m ((c : Thread nD τ).loc main_arg0)) (m ((c : Thread nD τ).loc main_arg2))⟩]
          concatenates_S1600000x64_S1600000x64_S1600000x128_d1 := by
  show StableHlo.after hostOps0 (fun b => m (c, b)) (Proc.devRef .tc main_v19) = _
  after_results_simp
  rfl

/-- The attribute array is the attributes argument. -/
theorem V_attrs (c : Dev nD) :
    (V m c main_v20 : S1600000x8.Idx → EReal) = m ((c : Thread nD τ).loc main_arg3) := by
  show StableHlo.after hostOps0 (fun b => m (c, b)) (Proc.devRef .tc main_v20) = _
  after_results_simp
  rfl

/-- The normalised coordinate differences. -/
theorem V_diff (c : Dev nD) :
    (V m c main_v45 : S1600000x3.Idx → EReal)
      = Cert.ReferenceIdeal.Read.val_main_v28 (F := Ideal) (m ((c : Thread nD τ).loc main_arg1)) (m ((c : Thread nD τ).loc main_arg2)) := by
  show StableHlo.after hostOps0 (fun b => m (c, b)) (Proc.devRef .tc main_v45) = _
  after_results_simp
  rfl

/-- The upper 128 rows of the first weight matrix. -/
theorem V_w1_upper (c : Dev nD) :
    (V m c main_v47 : S128x64.Idx → EReal)
      = extractStridedSlice S128x64 ![0, 0] (m ((c : Thread nD τ).loc main_arg4)) slices_S136x64_S128x64_0_0 := by
  show StableHlo.after hostOps0 (fun b => m (c, b)) (Proc.devRef .tc main_v47) = _
  after_results_simp
  rfl

/-- The lower 8 rows of the first weight matrix. -/
theorem V_w1_lower (c : Dev nD) :
    (V m c main_v49 : S8x64.Idx → EReal)
      = extractStridedSlice S8x64 ![128, 0] (m ((c : Thread nD τ).loc main_arg4)) slices_S136x64_S8x64_128_0 := by
  show StableHlo.after hostOps0 (fun b => m (c, b)) (Proc.devRef .tc main_v49) = _
  after_results_simp
  rfl

/-- The first bias as a one-row matrix. -/
theorem V_b1 (c : Dev nD) :
    (V m c main_v50 : S1x64.Idx → EReal) = shapeCast S1x64 (m ((c : Thread nD τ).loc main_arg5)) shapeCasts_S64_S1x64 := by
  show StableHlo.after hostOps0 (fun b => m (c, b)) (Proc.devRef .tc main_v50) = _
  after_results_simp
  rfl

/-- The second weight matrix. -/
theorem V_w2 (c : Dev nD) :
    (V m c main_v52 : S64x64.Idx → EReal) = m ((c : Thread nD τ).loc main_arg6) := by
  show StableHlo.after hostOps0 (fun b => m (c, b)) (Proc.devRef .tc main_v52) = _
  after_results_simp
  rfl

/-- The second bias as a one-row matrix. -/
theorem V_b2 (c : Dev nD) :
    (V m c main_v51 : S1x64.Idx → EReal) = shapeCast S1x64 (m ((c : Thread nD τ).loc main_arg7)) shapeCasts_S64_S1x64 := by
  show StableHlo.after hostOps0 (fun b => m (c, b)) (Proc.devRef .tc main_v51) = _
  after_results_simp
  rfl

/-- The output weights. -/
theorem V_w3 (c : Dev nD) :
    (V m c main_v53 : S64x1.Idx → EReal) = m ((c : Thread nD τ).loc main_arg8) := by
  show StableHlo.after hostOps0 (fun b => m (c, b)) (Proc.devRef .tc main_v53) = _
  after_results_simp
  rfl

end Cert.KernelIdeal.Inputs

end
-- ==== Proof.RefValue.lean ====
/-
  The reference program's per-edge translation, read at one edge and one coordinate, as the edge network of EdgeSpec.

  For edge `e` the reference lays the two gathered node rows (64 entries each) and the edge's attribute row (8 entries)
  end to end into a row of 136 entries, and applies a perceptron with two hidden layers of 64 units:
      pre₁ j = ∑ₖ row k · W₁ k j + b₁ j,   h₁ = silu pre₁,
      pre₂ j = ∑ₖ h₁ k · W₂ k j + b₂ j,    h₂ = silu pre₂,
      gate   = ∑ₖ h₂ k · W₃ k,
  where silu x = x · (1 / (1 + e⁻ˣ)) is computed as: negate, exponential, add one, reciprocal of that, multiply by x.
  The translation is the edge's normalised difference times the gate, the gate being the same for the three coordinates.

  The proof reads the generated per-operation values one at a time, at an index built from its coordinates: the
  concatenated row is the three rows joined (by cases on which span holds the coordinate), each contraction is a finite
  sum over its contracted axis, each bias is broadcast along the edges, and the five-operation activation is silu because
  the float word 0x3F800000 denotes 1. The sum over the 136-entry row against the whole first weight matrix is then the
  sum over the first 128 entries against the upper 128 weight rows plus the sum over the last 8 against the lower 8
  (EdgeSpec's `hidden1_whole`), which is the specification's first layer. The two gathered arrays and the normalised
  difference are never opened.
-/
import proofs.«150705_j19748259627798_2_alg».proof.Proof.Gen.ReferenceIdeal.Read
import proofs.«150705_j19748259627798_2_alg».proof.Proof.EdgeSpec
import Idealize.ShloMosaic.Lib.ValueIdx
import Idealize.ShloMosaic.Lib.Pipeline.Value
import Idealize.ShloMosaic.PureOps.Ideal.Laws
noncomputable section
open scoped BigOperators
namespace Cert.ReferenceIdeal.RefValue
open Idealize.ShloMosaic Idealize.ShloMosaic.ValueIdx Cert.ReferenceIdeal Cert.ReferenceIdeal.Gen Cert.ReferenceIdeal.Read Cert.EdgeNet

/-- The float word 0x3F800000 denotes 1. -/
theorem one_bits : Ideal.ofBits .f32 0x3F800000#32 = 1 := IdealRules.sign_bit.ideal_onePat .f32

/-- x · (1 / (1 + e^(-x))) written with the host's operations is silu. -/
theorem silu_host (v : Ideal .f32) :
    FloatOps.mulf v (FloatOps.hostDivf (FloatOps.ofBits .f32 0x3F800000#32)
      (FloatOps.addf (FloatOps.ofBits .f32 0x3F800000#32) (FloatOps.hostUnary .exp (FloatOps.hostNegf v))))
      = silu v := by
  show v * Ideal.div (Ideal.ofBits .f32 0x3F800000#32) (Ideal.ofBits .f32 0x3F800000#32 + Ideal.exp (-v)) = v * Ideal.div 1 (1 + Ideal.exp (-v))
  rw [one_bits]

/-- A row of the three-piece concatenation along the second axis, read at coordinate `k`: piece 0 holds the
    coordinates below 64, piece 1 those from 64 to 127, piece 2 those from 128 on, each read at `k` less the extents
    before it. -/
theorem row136 (P Q : FVec Ideal S1600000x64 .f32) (x3 : FVec Ideal S1600000x8 .f32) (e : Fin 1600000) (k : Fin 136) :
    concatenate S1600000x136 1 [⟨S1600000x64, P⟩, ⟨S1600000x64, Q⟩, ⟨S1600000x8, x3⟩]
        concatenates_S1600000x64_S1600000x64_S1600000x8_S1600000x136_d1 (ix2 e k)
      = join3 (fun q => P (ix2 e q)) (fun q => Q (ix2 e q)) (fun q => x3 (ix2 e q)) k := by
  have hk := k.isLt
  unfold join3
  by_cases h1 : k.val < 64
  · rw [dif_pos h1]
    exact concatenate_apply_piece (t := S1600000x136) 1 [⟨S1600000x64, P⟩, ⟨S1600000x64, Q⟩, ⟨S1600000x8, x3⟩] concatenates_S1600000x64_S1600000x64_S1600000x8_S1600000x136_d1 (ix2 e k) 0 (by show 0 < 3; omega) S1600000x64 P rfl rfl 0 rfl
      (ix2 e ⟨k.val, h1⟩) (fun b hb => by match b with | ⟨0, _⟩ => rfl | ⟨1, _⟩ => exact absurd rfl hb)
      (by show 0 + k.val = k.val; omega)
  · rw [dif_neg h1]
    by_cases h2 : k.val < 128
    · rw [dif_pos h2]
      exact concatenate_apply_piece (t := S1600000x136) 1 [⟨S1600000x64, P⟩, ⟨S1600000x64, Q⟩, ⟨S1600000x8, x3⟩] concatenates_S1600000x64_S1600000x64_S1600000x8_S1600000x136_d1 (ix2 e k) 1 (by show 1 < 3; omega) S1600000x64 Q rfl rfl 64 rfl
        (ix2 e ⟨k.val - 64, by omega⟩) (fun b hb => by match b with | ⟨0, _⟩ => rfl | ⟨1, _⟩ => exact absurd rfl hb)
        (by show 64 + (k.val - 64) = k.val; omega)
    · rw [dif_neg h2]
      exact concatenate_apply_piece (t := S1600000x136) 1 [⟨S1600000x64, P⟩, ⟨S1600000x64, Q⟩, ⟨S1600000x8, x3⟩] concatenates_S1600000x64_S1600000x64_S1600000x8_S1600000x136_d1 (ix2 e k) 2 (by show 2 < 3; omega) S1600000x8 x3 rfl rfl 128 rfl
        (ix2 e ⟨k.val - 128, by omega⟩) (fun b hb => by match b with | ⟨0, _⟩ => rfl | ⟨1, _⟩ => exact absurd rfl hb)
        (by show 128 + (k.val - 128) = k.val; omega)

section Layers

variable (x0 : FVec Ideal S50000x64 .f32) (x1 : FVec Ideal S50000x3 .f32) (x2 : IVec S2x1600000 32)
  (x3 : FVec Ideal S1600000x8 .f32) (x4 : FVec Ideal S136x64 .f32) (x5 : FVec Ideal S64 .f32)
  (x6 : FVec Ideal S64x64 .f32) (x7 : FVec Ideal S64 .f32) (x8 : FVec Ideal S64x1 .f32)

/-! ### The index functions of the generated module at an index given by its coordinates -/

theorem lidx44 (e : Fin 1600000) (j : Fin 64) (k : Fin 136) : lidx_main_v44 (ix2 e j) k = ix2 e k :=
  funext fun a => Fin.ext (by match a with | ⟨0, _⟩ => rfl | ⟨1, _⟩ => rfl)
theorem ridx44 (e : Fin 1600000) (j : Fin 64) (k : Fin 136) : ridx_main_v44 (ix2 e j) k = ix2 k j :=
  funext fun a => Fin.ext (by match a with | ⟨0, _⟩ => rfl | ⟨1, _⟩ => rfl)
theorem lidx49 (e : Fin 1600000) (j : Fin 64) (k : Fin 64) : lidx_main_v49 (ix2 e j) k = ix2 e k :=
  funext fun a => Fin.ext (by match a with | ⟨0, _⟩ => rfl | ⟨1, _⟩ => rfl)
theorem ridx49 (e : Fin 1600000) (j : Fin 64) (k : Fin 64) : ridx_main_v49 (ix2 e j) k = ix2 k j :=
  funext fun a => Fin.ext (by match a with | ⟨0, _⟩ => rfl | ⟨1, _⟩ => rfl)
theorem lidx54 (e : Fin 1600000) (k : Fin 64) : lidx_main_v54 (ix2 e (0 : Fin 1)) k = ix2 e k :=
  funext fun a => Fin.ext (by match a with | ⟨0, _⟩ => rfl | ⟨1, _⟩ => rfl)
theorem ridx54 (e : Fin 1600000) (k : Fin 64) : ridx_main_v54 (ix2 e (0 : Fin 1)) k = ix2 k (0 : Fin 1) :=
  funext fun a => Fin.ext (by match a with | ⟨0, _⟩ => rfl | ⟨1, _⟩ => rfl)
theorem idx55 (e : Fin 1600000) (d : Fin 3) : idx_main_v55 (ix2 e d) = ix2 e (0 : Fin 1) :=
  funext fun a => Fin.ext (by match a with | ⟨0, _⟩ => rfl | ⟨1, _⟩ => rfl)

/-! ### The first layer -/

/-- The 136-entry row of edge `e`: the two gathered node rows and the attribute row laid end to end. -/
theorem v43_at (e : Fin 1600000) (k : Fin 136) :
    val_main_v43 (F := Ideal) x0 x2 x3 (ix2 e k) = join3 (fun q => val_main_v35 (F := Ideal) x0 x2 (ix2 e q)) (fun q => val_main_v42 (F := Ideal) x0 x2 (ix2 e q)) (fun q => x3 (ix2 e q)) k := by
  unfold val_main_v43
  exact row136 _ _ x3 e k

/-- The first bias, broadcast over the edges. -/
theorem v46_at (e : Fin 1600000) (j : Fin 64) : val_main_v46 (F := Ideal) x5 (ix2 e j) = x5 (ix1 j) := by
  rw [val_main_v46_apply, val_main_v45_apply]
  exact congrArg x5 (funext fun a => Fin.ext (by match a with | ⟨0, _⟩ => rfl))

/-- The first layer before its activation. -/
theorem v47_at (e : Fin 1600000) (j : Fin 64) :
    val_main_v47 (F := Ideal) x0 x2 x3 x4 x5 (ix2 e j)
      = ∑ k : Fin 136, join3 (fun q => val_main_v35 (F := Ideal) x0 x2 (ix2 e q)) (fun q => val_main_v42 (F := Ideal) x0 x2 (ix2 e q)) (fun q => x3 (ix2 e q)) k * x4 (ix2 k j) + x5 (ix1 j) := by
  rw [val_main_v47_apply, Ideal.addf_def, v46_at, val_main_v44_apply]
  refine congrArg (· + x5 (ix1 j)) (Finset.sum_congr rfl fun k _ => ?_)
  rw [lidx44, ridx44, v43_at]

/-- The outlined activation after the first layer is silu, element by element. -/
theorem v48_silu (i : S1600000x64.Idx) :
    val_main_v48 (F := Ideal) x0 x2 x3 x4 x5 i = silu (val_main_v47 (F := Ideal) x0 x2 x3 x4 x5 i) := by
  rw [val_main_v48_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-- The first hidden layer. -/
theorem v48_at (e : Fin 1600000) (j : Fin 64) :
    val_main_v48 (F := Ideal) x0 x2 x3 x4 x5 (ix2 e j) = (hidden1 (join2 (fun q => val_main_v35 (F := Ideal) x0 x2 (ix2 e q)) (fun q => val_main_v42 (F := Ideal) x0 x2 (ix2 e q))) (fun q => x3 (ix2 e q)) (fun k j => x4 (ix2 (⟨k.val, by have := k.isLt; omega⟩ : Fin 136) j)) (fun k j => x4 (ix2 (⟨128 + k.val, by have := k.isLt; omega⟩ : Fin 136) j)) (fun j => x5 (ix1 j))) j := by
  rw [v48_silu, v47_at]
  exact hidden1_whole (fun q => val_main_v35 (F := Ideal) x0 x2 (ix2 e q)) (fun q => val_main_v42 (F := Ideal) x0 x2 (ix2 e q)) (fun q => x3 (ix2 e q)) (fun k j => x4 (ix2 k j)) (fun j => x5 (ix1 j)) j

/-! ### The second layer -/

/-- The second bias, broadcast over the edges. -/
theorem v51_at (e : Fin 1600000) (j : Fin 64) : val_main_v51 (F := Ideal) x7 (ix2 e j) = x7 (ix1 j) := by
  rw [val_main_v51_apply, val_main_v50_apply]
  exact congrArg x7 (funext fun a => Fin.ext (by match a with | ⟨0, _⟩ => rfl))

/-- The second layer before its activation. -/
theorem v52_at (e : Fin 1600000) (j : Fin 64) :
    val_main_v52 (F := Ideal) x0 x2 x3 x4 x5 x6 x7 (ix2 e j)
      = ∑ k : Fin 64, (hidden1 (join2 (fun q => val_main_v35 (F := Ideal) x0 x2 (ix2 e q)) (fun q => val_main_v42 (F := Ideal) x0 x2 (ix2 e q))) (fun q => x3 (ix2 e q)) (fun k j => x4 (ix2 (⟨k.val, by have := k.isLt; omega⟩ : Fin 136) j)) (fun k j => x4 (ix2 (⟨128 + k.val, by have := k.isLt; omega⟩ : Fin 136) j)) (fun j => x5 (ix1 j))) k * x6 (ix2 k j) + x7 (ix1 j) := by
  rw [val_main_v52_apply, Ideal.addf_def, v51_at, val_main_v49_apply]
  refine congrArg (· + x7 (ix1 j)) (Finset.sum_congr rfl fun k _ => ?_)
  rw [lidx49, ridx49, v48_at]

/-- The outlined activation after the second layer is silu, element by element. -/
theorem v53_silu (i : S1600000x64.Idx) :
    val_main_v53 (F := Ideal) x0 x2 x3 x4 x5 x6 x7 i = silu (val_main_v52 (F := Ideal) x0 x2 x3 x4 x5 x6 x7 i) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply]
  exact silu_host _

/-- The second hidden layer. -/
theorem v53_at (e : Fin 1600000) (j : Fin 64) :
    val_main_v53 (F := Ideal) x0 x2 x3 x4 x5 x6 x7 (ix2 e j) = (hidden2 (hidden1 (join2 (fun q => val_main_v35 (F := Ideal) x0 x2 (ix2 e q)) (fun q => val_main_v42 (F := Ideal) x0 x2 (ix2 e q))) (fun q => x3 (ix2 e q)) (fun k j => x4 (ix2 (⟨k.val, by have := k.isLt; omega⟩ : Fin 136) j)) (fun k j => x4 (ix2 (⟨128 + k.val, by have := k.isLt; omega⟩ : Fin 136) j)) (fun j => x5 (ix1 j))) (fun k j => x6 (ix2 k j)) (fun j => x7 (ix1 j))) j := by
  rw [v53_silu, v52_at]
  rfl

/-! ### The gate and the edge's translation -/

/-- The output layer: the edge's scalar gate. -/
theorem v54_at (e : Fin 1600000) :
    val_main_v54 (F := Ideal) x0 x2 x3 x4 x5 x6 x7 x8 (ix2 e (0 : Fin 1))
      = gate (join2 (fun q => val_main_v35 (F := Ideal) x0 x2 (ix2 e q)) (fun q => val_main_v42 (F := Ideal) x0 x2 (ix2 e q))) (fun q => x3 (ix2 e q)) (fun k j => x4 (ix2 (⟨k.val, by have := k.isLt; omega⟩ : Fin 136) j)) (fun k j => x4 (ix2 (⟨128 + k.val, by have := k.isLt; omega⟩ : Fin 136) j)) (fun j => x5 (ix1 j)) (fun k j => x6 (ix2 k j)) (fun j => x7 (ix1 j)) (fun k => x8 (ix2 k (0 : Fin 1))) := by
  rw [val_main_v54_apply]
  unfold gate
  refine Finset.sum_congr rfl fun k _ => ?_
  rw [lidx54, ridx54, v53_at]

end Layers

/-- The translation the reference computes for edge `e` along coordinate `d`: the edge's normalised difference
    times the edge network's gate, read off the edge's two gathered node rows and its attribute row. -/
theorem trans_apply (x0 : FVec Ideal S50000x64 .f32) (x1 : FVec Ideal S50000x3 .f32) (x2 : IVec S2x1600000 32)
    (x3 : FVec Ideal S1600000x8 .f32) (x4 : FVec Ideal S136x64 .f32) (x5 : FVec Ideal S64 .f32)
    (x6 : FVec Ideal S64x64 .f32) (x7 : FVec Ideal S64 .f32) (x8 : FVec Ideal S64x1 .f32) (e : Fin 1600000) (d : Fin 3) :
    val_main_v56 (F := Ideal) x0 x1 x2 x3 x4 x5 x6 x7 x8 (ix2 e d)
      = val_main_v28 (F := Ideal) x1 x2 (ix2 e d)
        * gate (join2 (fun q => val_main_v35 (F := Ideal) x0 x2 (ix2 e q)) (fun q => val_main_v42 (F := Ideal) x0 x2 (ix2 e q)))
            (fun q => x3 (ix2 e q))
            (fun k j => x4 (ix2 (⟨k.val, by have := k.isLt; omega⟩ : Fin 136) j))
            (fun k j => x4 (ix2 (⟨128 + k.val, by have := k.isLt; omega⟩ : Fin 136) j))
            (fun j => x5 (ix1 j)) (fun k j => x6 (ix2 k j)) (fun j => x7 (ix1 j)) (fun k => x8 (ix2 k (0 : Fin 1))) := by
  rw [val_main_v56_apply, Ideal.mulf_def, val_main_v55_apply, idx55, v54_at]

end Cert.ReferenceIdeal.RefValue

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.Bridge.lean ====
/-
  The kernel's array of scaled differences is the reference's array of translations.

  The kernel receives nine operand arrays, each a rearrangement of the launch arguments: the normalised differences
  (the same function of the arguments as on the reference side), the two gathered node-feature arrays side by side
  (128 columns), the edge attributes, the first weight matrix cut into its upper 128 rows and its lower 8 rows, the two
  biases as matrices of one row, and the second and output weights unchanged. Entry (e, d) of either array is the
  normalised difference (e, d) times the gate of edge e, the gate being the specification's edge network; so it suffices
  that the network's arguments agree: row e of the side-by-side array is the two gathered rows joined end to end, row k
  of the upper cut is row k of the weight matrix and row k of the lower cut is its row 128 + k, and entry (0, j) of a
  one-row matrix made from a vector is the vector's entry j. Neither the gathered arrays nor the normalised differences
  are opened.
-/
import proofs.«150705_j19748259627798_2_alg».proof.Proof.KernelTerm
import proofs.«150705_j19748259627798_2_alg».proof.Proof.RefValue
import proofs.«150705_j19748259627798_2_alg».proof.Proof.LibConcatPair
import Idealize.ShloMosaic.Lib.ValueIdx
import Idealize.ShloMosaic.Lib.ValueLayout
import Idealize.ShloMosaic.Lib.Pipeline.Value
noncomputable section
namespace Cert.Bridge
open Idealize.ShloMosaic Idealize.ShloMosaic.ValueIdx Cert.KernelIdeal Cert.KernelIdeal.Gen Cert.EdgeNet

/-- Row `e` of two 64-column arrays laid side by side is the two rows joined end to end: a column below 64 is the left
    array's, a column from 64 on is the right array's at the column less 64. -/
theorem feat_row (P Q : FVec Ideal S1600000x64 .f32) (e : Fin 1600000) :
    (fun k : Fin 128 => concatenate S1600000x128 1 [⟨S1600000x64, P⟩, ⟨S1600000x64, Q⟩]
        concatenates_S1600000x64_S1600000x64_S1600000x128_d1 (ix2 e k))
      = join2 (fun q => P (ix2 e q)) (fun q => Q (ix2 e q)) := by
  funext k
  have hk := k.isLt
  unfold join2
  by_cases h : k.val < 64
  · rw [dif_pos h]
    exact ConcatPair.cols_fst P Q concatenates_S1600000x64_S1600000x64_S1600000x128_d1 e ⟨k.val, h⟩ hk
  · rw [dif_neg h]
    have hq : 64 + (k.val - 64) < 128 := by omega
    have hk' : k = (⟨64 + (k.val - 64), hq⟩ : Fin 128) := Fin.ext (by show k.val = 64 + (k.val - 64); omega)
    refine (congrArg (fun z : Fin 128 => concatenate S1600000x128 1 [⟨S1600000x64, P⟩, ⟨S1600000x64, Q⟩]
        concatenates_S1600000x64_S1600000x64_S1600000x128_d1 (ix2 e z)) hk').trans ?_
    exact ConcatPair.cols_snd P Q concatenates_S1600000x64_S1600000x64_S1600000x128_d1 e ⟨k.val - 64, by omega⟩ hq

/-- The first 128 rows of the 136-row weight matrix, cut out as a matrix of their own. -/
theorem upper_rows (x4 : FVec Ideal S136x64 .f32) :
    (fun (k : Fin 128) (j : Fin 64) => extractStridedSlice S128x64 ![0, 0] x4 slices_S136x64_S128x64_0_0 (ix2 k j))
      = fun k j => x4 (ix2 (⟨k.val, by have := k.isLt; omega⟩ : Fin 136) j) := by
  funext k j
  exact slice2_axis0_apply 0 x4 slices_S136x64_S128x64_0_0 k j ⟨k.val, by have := k.isLt; omega⟩
    (by show k.val = 0 + k.val; omega)

/-- The last 8 rows of the 136-row weight matrix, cut out as a matrix of their own. -/
theorem lower_rows (x4 : FVec Ideal S136x64 .f32) :
    (fun (k : Fin 8) (j : Fin 64) => extractStridedSlice S8x64 ![128, 0] x4 slices_S136x64_S8x64_128_0 (ix2 k j))
      = fun k j => x4 (ix2 (⟨128 + k.val, by have := k.isLt; omega⟩ : Fin 136) j) := by
  funext k j
  exact slice2_axis0_apply 128 x4 slices_S136x64_S8x64_128_0 k j ⟨128 + k.val, by have := k.isLt; omega⟩ rfl

/-- A vector of 64 entries seen as a matrix of one row. -/
theorem one_row (b : FVec Ideal S64 .f32) :
    (fun j : Fin 64 => shapeCast S1x64 b shapeCasts_S64_S1x64 (ix2 (0 : Fin 1) j)) = fun j => b (ix1 j) := by
  funext j
  exact shapeCast_a_1a_apply b shapeCasts_S64_S1x64 0 j

/-- The kernel's scaled difference of edge `e` in coordinate `d`, with the kernel's operand arrays written from the
    launch arguments, is the reference's. -/
theorem trans_at (x0 : FVec Ideal S50000x64 .f32) (x1 : FVec Ideal S50000x3 .f32) (x2 : IVec S2x1600000 32)
    (x3 : FVec Ideal S1600000x8 .f32) (x4 : FVec Ideal S136x64 .f32) (x5 : FVec Ideal S64 .f32)
    (x6 : FVec Ideal S64x64 .f32) (x7 : FVec Ideal S64 .f32) (x8 : FVec Ideal S64x1 .f32) (e : Fin 1600000) (d : Fin 3) :
    Cert.KernelIdeal.Blocks.transOf
      (Cert.ReferenceIdeal.Read.val_main_v28 (F := Ideal) x1 x2)
      (concatenate S1600000x128 1
        [⟨S1600000x64, Cert.ReferenceIdeal.Read.val_main_v35 (F := Ideal) x0 x2⟩,
         ⟨S1600000x64, Cert.ReferenceIdeal.Read.val_main_v42 (F := Ideal) x0 x2⟩]
        concatenates_S1600000x64_S1600000x64_S1600000x128_d1)
      x3
      (extractStridedSlice S128x64 ![0, 0] x4 slices_S136x64_S128x64_0_0)
      (extractStridedSlice S8x64 ![128, 0] x4 slices_S136x64_S8x64_128_0)
      (shapeCast S1x64 x5 shapeCasts_S64_S1x64)
      x6
      (shapeCast S1x64 x7 shapeCasts_S64_S1x64)
      x8 (ix2 e d)
    = Cert.ReferenceIdeal.Read.val_main_v56 (F := Ideal) x0 x1 x2 x3 x4 x5 x6 x7 x8 (ix2 e d) := by
  rw [Cert.KernelIdeal.Blocks.transOf_ix2, Cert.ReferenceIdeal.RefValue.trans_apply]
  unfold Cert.KernelIdeal.Blocks.edgeTerm
  rw [feat_row, upper_rows, lower_rows, one_row x5, one_row x7]

/-- The kernel's array of scaled differences, with the kernel's nine operand arrays written from the launch arguments —
    the normalised differences, the two gathered node rows side by side, the attributes, the upper 128 and the lower 8
    rows of the first weight matrix, the two biases as one-row matrices, the second and the output weights — is the
    reference's array of translations, entry by entry. -/
theorem trans_eq (x0 : FVec Ideal S50000x64 .f32) (x1 : FVec Ideal S50000x3 .f32) (x2 : IVec S2x1600000 32)
    (x3 : FVec Ideal S1600000x8 .f32) (x4 : FVec Ideal S136x64 .f32) (x5 : FVec Ideal S64 .f32)
    (x6 : FVec Ideal S64x64 .f32) (x7 : FVec Ideal S64 .f32) (x8 : FVec Ideal S64x1 .f32) :
    Cert.KernelIdeal.Blocks.transOf
      (Cert.ReferenceIdeal.Read.val_main_v28 (F := Ideal) x1 x2)
      (concatenate S1600000x128 1
        [⟨S1600000x64, Cert.ReferenceIdeal.Read.val_main_v35 (F := Ideal) x0 x2⟩,
         ⟨S1600000x64, Cert.ReferenceIdeal.Read.val_main_v42 (F := Ideal) x0 x2⟩]
        concatenates_S1600000x64_S1600000x64_S1600000x128_d1)
      x3
      (extractStridedSlice S128x64 ![0, 0] x4 slices_S136x64_S128x64_0_0)
      (extractStridedSlice S8x64 ![128, 0] x4 slices_S136x64_S8x64_128_0)
      (shapeCast S1x64 x5 shapeCasts_S64_S1x64)
      x6
      (shapeCast S1x64 x7 shapeCasts_S64_S1x64)
      x8
    = Cert.ReferenceIdeal.Read.val_main_v56 (F := Ideal) x0 x1 x2 x3 x4 x5 x6 x7 x8 := by
  funext i
  rw [eq_ix2 i]
  exact trans_at x0 x1 x2 x3 x4 x5 x6 x7 x8 _ _

end Cert.Bridge

end
-- ==== Proof.RefResult.lean ====
/-
  The reference program's result as the shared last steps applied to its array of scaled differences: its scatter-add,
  division by 100 and final addition are, operation for operation, the shared tail.
-/
import proofs.«150705_j19748259627798_2_alg».proof.Proof.Gen.ReferenceIdeal.Read
import proofs.«150705_j19748259627798_2_alg».proof.Proof.SharedTail

noncomputable section

namespace Cert.ReferenceIdeal.RefResult

open Idealize.ShloMosaic Cert.ReferenceIdeal Cert.ReferenceIdeal.Read

/-- The reference's result is the tail of its source-node vector and its array of scaled differences. -/
theorem result_eq (x0 : FVec Ideal S50000x64 .f32) (x1 : FVec Ideal S50000x3 .f32) (x2 : IVec S2x1600000 32)
    (x3 : FVec Ideal S1600000x8 .f32) (x4 : FVec Ideal S136x64 .f32) (x5 : FVec Ideal S64 .f32)
    (x6 : FVec Ideal S64x64 .f32) (x7 : FVec Ideal S64 .f32) (x8 : FVec Ideal S64x1 .f32) :
    val_main_v62 (F := Ideal) x0 x1 x2 x3 x4 x5 x6 x7 x8
      = Cert.KernelIdeal.Tail.tail x1 (val_main_v1 (F := Ideal) x2) (val_main_v56 (F := Ideal) x0 x1 x2 x3 x4 x5 x6 x7 x8) := by
  generalize hT : val_main_v56 (F := Ideal) x0 x1 x2 x3 x4 x5 x6 x7 x8 = T
  unfold val_main_v62 val_main_v61 val_main_v59
  rw [hT]
  rfl

end Cert.ReferenceIdeal.RefResult

end
-- ==== Proof.lean ====
/-
  The certificate's claims for the edge network of one message-passing step.

  Both programs compute, for every edge, the normalised coordinate difference scaled by the edge network's scalar
  gate, sum the scaled differences onto the edges' source nodes, divide by 100 and add the node coordinates. The
  kernel program evaluates the gate block by block in a pipelined region, with the first weight matrix cut into its
  upper 128 rows (against the two gathered node rows) and its lower 8 rows (against the edge attributes); the reference
  evaluates it for all edges at once with the whole 136-row matrix against the 136-entry row. On the extended reals
  the two agree edge by edge: the roundings to the narrow float format are the identity, the logistic function is the
  same expression on both sides, and a sum of 136 products cut after the first 128 is the sum of the two partial sums —
  a fact of finite sums in a commutative monoid, so the finiteness of the inputs is never used.

  The three frame claims are the generated frame runs (the reference's being its generated run with the result
  dropped), the idealisation rewrote nothing, and the algebraic claim joins the kernel's run, read through the cover of
  its result array, to the reference's run, read stage by stage.
-/
import proofs.«150705_j19748259627798_2_alg».proof.Defs
import proofs.«150705_j19748259627798_2_alg».proof.Proof.Gen.Kernel
import proofs.«150705_j19748259627798_2_alg».proof.Proof.Gen.Kernel.Frame
import proofs.«150705_j19748259627798_2_alg».proof.Proof.Gen.KernelIdeal
import proofs.«150705_j19748259627798_2_alg».proof.Proof.Gen.KernelIdeal.Frame
import proofs.«150705_j19748259627798_2_alg».proof.Proof.Gen.ReferenceIdeal
import proofs.«150705_j19748259627798_2_alg».proof.Proof.Gen.ReferenceIdeal.Run
import proofs.«150705_j19748259627798_2_alg».proof.Proof.Gen.ReferenceIdeal.Read
import proofs.«150705_j19748259627798_2_alg».proof.Proof.Gen.Pre_finite_inputs
import proofs.«150705_j19748259627798_2_alg».proof.Proof.KernelRun
import proofs.«150705_j19748259627798_2_alg».proof.Proof.KernelInputs
import proofs.«150705_j19748259627798_2_alg».proof.Proof.Bridge
import proofs.«150705_j19748259627798_2_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result, written from its launch arguments, is the reference's result at the same arguments. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v62 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
      = Cert.KernelIdeal.RunValue.result m c := by
  rw [Cert.ReferenceIdeal.RefResult.result_eq]
  unfold Cert.KernelIdeal.RunValue.result Cert.KernelIdeal.Blocks.trans
  rw [Cert.KernelIdeal.Inputs.V_row m c, Cert.KernelIdeal.Inputs.V_diff m c, Cert.KernelIdeal.Inputs.V_features m c,
    Cert.KernelIdeal.Inputs.V_attrs m c, Cert.KernelIdeal.Inputs.V_w1_upper m c, Cert.KernelIdeal.Inputs.V_w1_lower m c,
    Cert.KernelIdeal.Inputs.V_b1 m c, Cert.KernelIdeal.Inputs.V_w2 m c, Cert.KernelIdeal.Inputs.V_b2 m c,
    Cert.KernelIdeal.Inputs.V_w3 m c, Cert.Bridge.trans_eq]

theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v62_eq, h0, h1, h2, h3, h4, h5, h6, h7, h8]
  exact result_eq m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
